-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x16 : Shape := ⟨2, ![4000000, 16]⟩
abbrev S4000000 : Shape := ⟨1, ![4000000]⟩
abbrev S_ : Shape := ⟨0, ![]⟩

class Facts : Prop where
  bcast_S_S4000000x16 : S_.BroadcastsInDim S4000000x16 (![] : Fin 0 → Fin S4000000x16.rank)
  reducesTo_S4000000x16_S_d0_1 : S4000000x16.ReducesTo [0, 1] S_
  h_S_ : 0 < S_.numel

variable [Facts]

def fn {F : FTy → Type} [FloatOps F] (main_arg0 : FVec F S4000000x16 .f32) (main_arg1 : IVec S4000000 32) : IVec S_ 1 :=
  let main_v0 : FVec F S4000000x16 .f32 := Host.absf main_arg0
  let main_cst : FVec F S_ .f32 := constant S_ .f32 0x7F800000#32
  let main_v1 : FVec F S4000000x16 .f32 := broadcastInDim S4000000x16 ![] bcast_S_S4000000x16 main_cst
  let main_v2 : IVec S4000000x16 1 := cmpf .olt main_v0 main_v1
  let main_c : IVec S_ 1 := constantI S_ 1 1#1
  let main_v3 : IVec S_ 1 := (fun x v => Host.reduce IntOp.andi x v reducesTo_S4000000x16_S_d0_1 h_S_) main_v2 main_c
  main_v3
-- ==== Kernel.lean ====
abbrev S4000000x16 : Shape := ⟨2, ![4000000, 16]⟩
abbrev S4000000 : Shape := ⟨1, ![4000000]⟩
abbrev S2048x16 : Shape := ⟨2, ![2048, 16]⟩
abbrev S2048 : Shape := ⟨1, ![2048]⟩
abbrev S2048x1 : Shape := ⟨2, ![2048, 1]⟩

abbrev nBuf : Space → Nat
  | .hbm => 3
  | .vmem => 6
  | .smem => 0
  | _ => 0

abbrev bufTy : (tb : Table) → Fin (tcTables nBuf tb) → BufTy
  | .hbm, ⟨0, _⟩ => ⟨S4000000x16, .f32⟩
  | .hbm, ⟨1, _⟩ => ⟨S4000000, .i32⟩
  | .hbm, ⟨2, _⟩ => ⟨S4000000, .f32⟩
  | .local _ .vmem, ⟨0, _⟩ => ⟨S2048x16, .f32⟩
  | .local _ .vmem, ⟨1, _⟩ => ⟨S2048x16, .f32⟩
  | .local _ .vmem, ⟨2, _⟩ => ⟨S2048, .i32⟩
  | .local _ .vmem, ⟨3, _⟩ => ⟨S2048, .i32⟩
  | .local _ .vmem, ⟨4, _⟩ => ⟨S2048, .f32⟩
  | .local _ .vmem, ⟨5, _⟩ => ⟨S2048, .f32⟩
  | _, _ => ⟨S4000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![1954], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x16_S2048x16_0_0 : ∀ a, (![0, 0] : Fin 2 → Nat) a + S2048x16.size a ≤ S2048x16.size a
  h_S2048x16 : 0 < S2048x16.numel
  inb_S2048_S2048_0 : ∀ a, (![0] : Fin 1 → Nat) a + S2048.size a ≤ S2048.size a
  h_S2048 : 0 < S2048.numel
  slices_S2048x16_o0_0_S2048x1 : S2048x16.Slices ![0, 0] S2048x1
  shapeCasts_S2048x1_S2048 : S2048x1.ShapeCasts S2048
  slices_S2048x16_o0_1_S2048x1 : S2048x16.Slices ![0, 1] S2048x1
  slices_S2048x16_o0_2_S2048x1 : S2048x16.Slices ![0, 2] S2048x1
  slices_S2048x16_o0_3_S2048x1 : S2048x16.Slices ![0, 3] S2048x1
  slices_S2048x16_o0_4_S2048x1 : S2048x16.Slices ![0, 4] S2048x1
  slices_S2048x16_o0_5_S2048x1 : S2048x16.Slices ![0, 5] S2048x1
  slices_S2048x16_o0_6_S2048x1 : S2048x16.Slices ![0, 6] S2048x1
  slices_S2048x16_o0_7_S2048x1 : S2048x16.Slices ![0, 7] S2048x1
  slices_S2048x16_o0_8_S2048x1 : S2048x16.Slices ![0, 8] S2048x1
  slices_S2048x16_o0_9_S2048x1 : S2048x16.Slices ![0, 9] S2048x1
  slices_S2048x16_o0_10_S2048x1 : S2048x16.Slices ![0, 10] S2048x1
  slices_S2048x16_o0_11_S2048x1 : S2048x16.Slices ![0, 11] S2048x1
  slices_S2048x16_o0_12_S2048x1 : S2048x16.Slices ![0, 12] S2048x1
  slices_S2048x16_o0_13_S2048x1 : S2048x16.Slices ![0, 13] S2048x1
  slices_S2048x16_o0_14_S2048x1 : S2048x16.Slices ![0, 14] S2048x1
  slices_S2048x16_o0_15_S2048x1 : S2048x16.Slices ![0, 15] S2048x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x16.size a < S4000000x16.size a
  hwx0_0 : ∀ i : grid0.Coords, EltTy.bits .f32 = 32 ∨ (Rect.unit (s := S4000000x16) (fun a => cc0_transform_0 i a * S2048x16.size a) (fun a => (Pipeline.Clip.of (cc0_transform_0 i a) (S2048x16.size a) (S4000000x16.size a)).extent (S2048x16.size a)) fun a => Pipeline.Clip.inb (Pipeline.Clip.ok_of (hstart0_0 i a))).WholeWords (EltTy.packing .f32)
  hwxs0_0 : ∀ i : grid0.Coords, EltTy.bits .f32 = 32 ∨ (Rect.unit (s := S2048x16) (fun _ => 0) (fun a => (Pipeline.Clip.of (cc0_transform_0 i a) (S2048x16.size a) (S4000000x16.size a)).extent (S2048x16.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048.size a < S4000000.size a
  hwx0_1 : ∀ i : grid0.Coords, EltTy.bits .i32 = 32 ∨ (Rect.unit (s := S4000000) (fun a => cc0_transform_1 i a * S2048.size a) (fun a => (Pipeline.Clip.of (cc0_transform_1 i a) (S2048.size a) (S4000000.size a)).extent (S2048.size a)) fun a => Pipeline.Clip.inb (Pipeline.Clip.ok_of (hstart0_1 i a))).WholeWords (EltTy.packing .i32)
  hwxs0_1 : ∀ i : grid0.Coords, EltTy.bits .i32 = 32 ∨ (Rect.unit (s := S2048) (fun _ => 0) (fun a => (Pipeline.Clip.of (cc0_transform_1 i a) (S2048.size a) (S4000000.size a)).extent (S2048.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048.size a < S4000000.size a
  hwx0_2 : ∀ i : grid0.Coords, EltTy.bits .f32 = 32 ∨ (Rect.unit (s := S4000000) (fun a => cc0_transform_2 i a * S2048.size a) (fun a => (Pipeline.Clip.of (cc0_transform_2 i a) (S2048.size a) (S4000000.size a)).extent (S2048.size a)) fun a => Pipeline.Clip.inb (Pipeline.Clip.ok_of (hstart0_2 i a))).WholeWords (EltTy.packing .f32)
  hwxs0_2 : ∀ i : grid0.Coords, EltTy.bits .f32 = 32 ∨ (Rect.unit (s := S2048) (fun _ => 0) (fun a => (Pipeline.Clip.of (cc0_transform_2 i a) (S2048.size a) (S4000000.size a)).extent (S2048.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_arg0) S2048x16.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x16 : Shape := ⟨2, ![4000000, 16]⟩
abbrev S4000000 : Shape := ⟨1, ![4000000]⟩
abbrev S4000000x8x2 : Shape := ⟨3, ![4000000, 8, 2]⟩
abbrev S4000000x1x2 : Shape := ⟨3, ![4000000, 1, 2]⟩
abbrev S4000000x6x2 : Shape := ⟨3, ![4000000, 6, 2]⟩
abbrev S4000000x1x1 : Shape := ⟨3, ![4000000, 1, 1]⟩
abbrev S4000000x1 : Shape := ⟨2, ![4000000, 1]⟩
abbrev S4000000x6x1 : Shape := ⟨3, ![4000000, 6, 1]⟩
abbrev S4000000x6 : Shape := ⟨2, ![4000000, 6]⟩
abbrev S_ : Shape := ⟨0, ![]⟩
abbrev S6 : Shape := ⟨1, ![6]⟩
abbrev S1x6 : Shape := ⟨2, ![1, 6]⟩

abbrev nBuf : Space → Nat
  | .hbm => 50
  | .vmem => 0
  | .smem => 0
  | _ => 0

abbrev bufTy : (tb : Table) → Fin (tcTables nBuf tb) → BufTy
  | .hbm, ⟨0, _⟩ => ⟨S4000000x16, .f32⟩
  | .hbm, ⟨1, _⟩ => ⟨S4000000, .i32⟩
  | .hbm, ⟨2, _⟩ => ⟨S4000000x8x2, .f32⟩
  | .hbm, ⟨3, _⟩ => ⟨S4000000x1x2, .f32⟩
  | .hbm, ⟨4, _⟩ => ⟨S4000000x6x2, .f32⟩
  | .hbm, ⟨5, _⟩ => ⟨S4000000x6x2, .f32⟩
  | .hbm, ⟨6, _⟩ => ⟨S4000000x1x1, .f32⟩
  | .hbm, ⟨7, _⟩ => ⟨S4000000x1, .f32⟩
  | .hbm, ⟨8, _⟩ => ⟨S4000000x6x1, .f32⟩
  | .hbm, ⟨9, _⟩ => ⟨S4000000x6, .f32⟩
  | .hbm, ⟨10, _⟩ => ⟨S4000000x6, .f32⟩
  | .hbm, ⟨11, _⟩ => ⟨S4000000x6, .f32⟩
  | .hbm, ⟨12, _⟩ => ⟨S4000000x6x1, .f32⟩
  | .hbm, ⟨13, _⟩ => ⟨S4000000x6, .f32⟩
  | .hbm, ⟨14, _⟩ => ⟨S4000000x6x1, .f32⟩
  | .hbm, ⟨15, _⟩ => ⟨S4000000x6, .f32⟩
  | .hbm, ⟨16, _⟩ => ⟨S4000000x6, .f32⟩
  | .hbm, ⟨17, _⟩ => ⟨S4000000x6, .f32⟩
  | .hbm, ⟨18, _⟩ => ⟨S4000000x1x1, .f32⟩
  | .hbm, ⟨19, _⟩ => ⟨S4000000x1, .f32⟩
  | .hbm, ⟨20, _⟩ => ⟨S4000000x6x1, .f32⟩
  | .hbm, ⟨21, _⟩ => ⟨S4000000x6, .f32⟩
  | .hbm, ⟨22, _⟩ => ⟨S4000000x6, .f32⟩
  | .hbm, ⟨23, _⟩ => ⟨S4000000x6, .f32⟩
  | .hbm, ⟨24, _⟩ => ⟨S4000000x6x1, .f32⟩
  | .hbm, ⟨25, _⟩ => ⟨S4000000x6, .f32⟩
  | .hbm, ⟨26, _⟩ => ⟨S4000000x6x1, .f32⟩
  | .hbm, ⟨27, _⟩ => ⟨S4000000x6, .f32⟩
  | .hbm, ⟨28, _⟩ => ⟨S4000000x6, .f32⟩
  | .hbm, ⟨29, _⟩ => ⟨S4000000x6, .f32⟩
  | .hbm, ⟨30, _⟩ => ⟨S4000000x6, .f32⟩
  | .hbm, ⟨31, _⟩ => ⟨S4000000x6, .f32⟩
  | .hbm, ⟨32, _⟩ => ⟨S_, .f32⟩
  | .hbm, ⟨33, _⟩ => ⟨S4000000x6, .f32⟩
  | .hbm, ⟨34, _⟩ => ⟨S4000000x6, .f32⟩
  | .hbm, ⟨35, _⟩ => ⟨S6, .i32⟩
  | .hbm, ⟨36, _⟩ => ⟨S1x6, .i32⟩
  | .hbm, ⟨37, _⟩ => ⟨S4000000x1, .i32⟩
  | .hbm, ⟨38, _⟩ => ⟨S_, .i32⟩
  | .hbm, ⟨39, _⟩ => ⟨S4000000x1, .i32⟩
  | .hbm, ⟨40, _⟩ => ⟨S4000000x1, .i32⟩
  | .hbm, ⟨41, _⟩ => ⟨S4000000x6, .i32⟩
  | .hbm, ⟨42, _⟩ => ⟨S4000000x6, .i32⟩
  | .hbm, ⟨43, _⟩ => ⟨S4000000x6, .i1⟩
  | .hbm, ⟨44, _⟩ => ⟨S_, .f32⟩
  | .hbm, ⟨45, _⟩ => ⟨S_, .f32⟩
  | .hbm, ⟨46, _⟩ => ⟨S4000000x6, .f32⟩
  | .hbm, ⟨47, _⟩ => ⟨S4000000x6, .f32⟩
  | .hbm, ⟨48, _⟩ => ⟨S_, .f32⟩
  | .hbm, ⟨49, _⟩ => ⟨S4000000, .f32⟩
  | _, _ => ⟨S4000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_cst : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_c : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_cst_0 : Ref sig .tc := ⟨.hbm, 44, rfl⟩
abbrev main_call0_v0 : Ref sig .tc := ⟨.hbm, 45, rfl⟩
abbrev main_call0_v1 : Ref sig .tc := ⟨.hbm, 46, rfl⟩
abbrev main_v40 : Ref sig .tc := ⟨.hbm, 47, rfl⟩
abbrev main_cst_1 : Ref sig .tc := ⟨.hbm, 48, rfl⟩
abbrev main_v41 : Ref sig .tc := ⟨.hbm, 49, rfl⟩

abbrev nD : Nat := 1
abbrev τ : Topo := Topo.v7x

variable {F : FTy → Type} [FloatOps F]

class Facts₀ : Prop where
  shapeCasts_S4000000x16_S4000000x8x2 : S4000000x16.ShapeCasts S4000000x8x2
  slices_S4000000x8x2_S4000000x1x2_0_0_0 : S4000000x8x2.Slices ![0, 0, 0] S4000000x1x2
  slices_S4000000x8x2_S4000000x6x2_0_1_0 : S4000000x8x2.Slices ![0, 1, 0] S4000000x6x2
  slices_S4000000x8x2_S4000000x6x2_0_2_0 : S4000000x8x2.Slices ![0, 2, 0] S4000000x6x2
  slices_S4000000x1x2_S4000000x1x1_0_0_0 : S4000000x1x2.Slices ![0, 0, 0] S4000000x1x1
  shapeCasts_S4000000x1x1_S4000000x1 : S4000000x1x1.ShapeCasts S4000000x1
  slices_S4000000x6x2_S4000000x6x1_0_0_0 : S4000000x6x2.Slices ![0, 0, 0] S4000000x6x1
  shapeCasts_S4000000x6x1_S4000000x6 : S4000000x6x1.ShapeCasts S4000000x6
  bcast_S4000000x1_S4000000x6_0_1 : S4000000x1.BroadcastsInDim S4000000x6 (![0, 1] : Fin 2 → Fin S4000000x6.rank)
  slices_S4000000x6x2_S4000000x6x1_0_0_1 : S4000000x6x2.Slices ![0, 0, 1] S4000000x6x1
  slices_S4000000x1x2_S4000000x1x1_0_0_1 : S4000000x1x2.Slices ![0, 0, 1] S4000000x1x1
  bcast_S_S4000000x6 : S_.BroadcastsInDim S4000000x6 (![] : Fin 0 → Fin S4000000x6.rank)
  bcast_S6_S1x6_1 : S6.BroadcastsInDim S1x6 (![1] : Fin 1 → Fin S1x6.rank)
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S1x6_S4000000x6_0_1 : S1x6.BroadcastsInDim S4000000x6 (![0, 1] : Fin 2 → Fin S4000000x6.rank)
  reducesTo_S4000000x6_S4000000_d1 : S4000000x6.ReducesTo [1] S4000000
  h_S_ : 0 < S_.numel

variable [Facts₀]

class Facts : Prop extends Facts₀ where

variable [Facts]
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.FanArea.lean ====
/-
  The area of a polygon with at most eight vertices, by fan triangulation from its first vertex, one polygon per row.

  A row holds sixteen numbers, the coordinates (x₀, y₀), …, (x₇, y₇) of eight points, and an integer `n`, how many of the
  points are vertices. Triangle `k` (k = 0, …, 5) of the fan is (p₀, p₍ₖ₊₁₎, p₍ₖ₊₂₎); its area is half the absolute value of
  the cross product (x₀ - x₍ₖ₊₂₎)(y₍ₖ₊₁₎ - y₍ₖ₊₂₎) - (y₀ - y₍ₖ₊₂₎)(x₍ₖ₊₁₎ - x₍ₖ₊₂₎), and it counts when k < n - 2 (a signed comparison of
  32-bit words, the subtraction wrapping). The row's result is the sum of the counted areas, starting from zero and adding the
  triangles in order.

  Everything is stated over any float instance `F`: the same term is read word by word and as extended reals. On the
  extended reals the ordered sum is the sum over the six triangles, since addition there is commutative and associative.
-/
import Idealize.ShloMosaic.PureOps.Ideal
import Idealize.ShloMosaic.Lib.ValueIdx
import Idealize.ShloMosaic.Lib.ValueLayout
import proofs.«136837_j23639499997217_2_alg».proof.Proof.LibColumnLayout

noncomputable section

namespace Cert.FanArea

open Idealize.ShloMosaic Idealize.ShloMosaic.ValueIdx

variable {F : FTy → Type} [FloatOps F]

/-- (x₁ - x₃)(y₂ - y₃) - (y₁ - y₃)(x₂ - x₃): twice the signed area of the triangle p₁ p₂ p₃. -/
def cross (x1 y1 x2 y2 x3 y3 : F .f32) : F .f32 :=
  FloatOps.subf (FloatOps.mulf (FloatOps.subf x1 x3) (FloatOps.subf y2 y3))
    (FloatOps.mulf (FloatOps.subf y1 y3) (FloatOps.subf x2 x3))

/-- Triangle `k` of the fan of the row `x` with `n` vertices: half the absolute cross product of (p₀, p₍ₖ₊₁₎, p₍ₖ₊₂₎) when
    `k < n - 2`, zero otherwise. -/
def tri (x : Fin 16 → F .f32) (n : BitVec 32) (k : Fin 6) : F .f32 :=
  Scalar.select (IntOp.cmpi .slt (BitVec.ofNat 32 k.val) (IntOp.subi n 2#32))
    (FloatOps.mulf
      (FloatOps.absf (cross (x 0) (x 1)
        (x ⟨2 * k.val + 2, by have := k.isLt; omega⟩) (x ⟨2 * k.val + 3, by have := k.isLt; omega⟩)
        (x ⟨2 * k.val + 4, by have := k.isLt; omega⟩) (x ⟨2 * k.val + 5, by have := k.isLt; omega⟩)))
      (FloatOps.ofBits .f32 0x3F000000#32))
    (FloatOps.ofBits .f32 0x00000000#32)

/-- The row's area: zero, plus the six triangles in order. -/
def areaRow (x : Fin 16 → F .f32) (n : BitVec 32) : F .f32 :=
  FloatOps.addf (FloatOps.addf (FloatOps.addf (FloatOps.addf (FloatOps.addf (FloatOps.addf
    (FloatOps.ofBits .f32 0x00000000#32) (tri x n 0)) (tri x n 1)) (tri x n 2)) (tri x n 3)) (tri x n 4)) (tri x n 5)

/-- The whole result: entry `i` is the area of row `i` of the points with row `i`'s vertex count. -/
def wholeArea {N : ℕ} (a0 : (⟨2, ![N, 16]⟩ : Shape).Idx → F .f32) (a1 : (⟨1, ![N]⟩ : Shape).Idx → BitVec 32) :
    (⟨1, ![N]⟩ : Shape).Idx → F .f32 :=
  fun i => areaRow (fun k => a0 (ix2 (i 0) k)) (a1 i)

/-- The result of a row depends on that row alone. -/
theorem areaRow_congr {x x' : Fin 16 → F .f32} {n n' : BitVec 32} (hx : ∀ k, x k = x' k) (hn : n = n') :
    areaRow x n = areaRow x' n' := by
  rw [show x = x' from funext hx, hn]

/-- Column `o` of a matrix, taken as a one-column slice and flattened, reads at row `r` the matrix at `(r, o)`. -/
theorem column_apply {α : Type} {a b : ℕ} (o : ℕ) (X : (⟨2, ![a, b]⟩ : Shape).Idx → α)
    (hs : (⟨2, ![a, b]⟩ : Shape).Slices ![0, o] ⟨2, ![a, 1]⟩) (hc : (⟨2, ![a, 1]⟩ : Shape).ShapeCasts ⟨1, ![a]⟩)
    (r : Fin a) (k : Fin b) (hk : k.val = o) :
    shapeCast ⟨1, ![a]⟩ (extractStridedSlice ⟨2, ![a, 1]⟩ ![0, o] X hs) hc (ix1 r) = X (ix2 r k) := by
  rw [Cert.ColumnLayout.shapeCast_a1_a_apply]
  exact slice2_axis1_apply o X hs r 0 k (by rw [hk]; rfl)

/-- The same, as an equation between vectors. -/
theorem column_eq {α : Type} {a b : ℕ} (o : ℕ) (ho : o < b) (X : (⟨2, ![a, b]⟩ : Shape).Idx → α)
    (hs : (⟨2, ![a, b]⟩ : Shape).Slices ![0, o] ⟨2, ![a, 1]⟩) (hc : (⟨2, ![a, 1]⟩ : Shape).ShapeCasts ⟨1, ![a]⟩) :
    shapeCast ⟨1, ![a]⟩ (extractStridedSlice ⟨2, ![a, 1]⟩ ![0, o] X hs) hc = fun j => X (ix2 (j 0) ⟨o, ho⟩) := by
  funext j
  rw [eq_ix1 j]
  exact column_apply o X hs hc (j 0) ⟨o, ho⟩ rfl

/-! ## On the extended reals -/

/-- On the extended reals the ordered sum is zero plus the sum over the six triangles. -/
theorem areaRow_ideal (x : Fin 16 → Ideal .f32) (n : BitVec 32) :
    areaRow (F := Ideal) x n = Ideal.ofBits .f32 0x00000000#32 + ∑ k : Fin 6, tri (F := Ideal) x n k := by
  rw [Fin.sum_univ_six]
  show ((((((Ideal.ofBits .f32 0x00000000#32 + tri x n 0) + tri x n 1) + tri x n 2) + tri x n 3) + tri x n 4) + tri x n 5 : EReal) = _
  simp only [add_assoc]

end Cert.FanArea

end
-- ==== Proof.KernelBody.lean ====
/-
  The kernel as printed: what one grid point does, and what the whole run leaves.

  The grid has 1954 points; point `t` stages rows 2048 t … 2048 t + 2047 of the points and of the vertex counts, and writes the
  same rows of the result back. The last point's block overhangs the arrays: only its first 256 rows are moved either way, and
  what the other 1792 rows of the staging buffers hold is not named.

  The body loads the two blocks whole, reads the sixteen columns of the points, and stores, row by row, the fan-triangulation
  area of the row (Proof/FanArea.lean). Since every operation acts on a row by itself, row `j` of what it stores depends only
  on row `j` of the two blocks; on the rows the write-back moves these are rows of the argument arrays, so the moved part of the
  stored block is block `t` of ONE function of the whole arrays, whatever fills the buffers past the arrays' end. The blocks of
  the 1954 points cover the result array (entry `i` lies in the block of point `i / 2048`), hence after the run the result
  array is that function of the arguments, and the arguments are unchanged.

  Stated for any float instance: the same text gives the frame of the program read word by word and of the program read on the
  extended reals.
-/
import proofs.«136837_j23639499997217_2_alg».proof.Proof.Gen.Kernel.Frame
import proofs.«136837_j23639499997217_2_alg».proof.Proof.Gen.Kernel.Skeleton
import proofs.«136837_j23639499997217_2_alg».proof.Proof.FanArea
import Idealize.ShloMosaic.Lib.Pipeline.Value

set_option maxRecDepth 16384

noncomputable section

namespace Cert.Kernel.Body

open Cert.Kernel Cert.Kernel.Gen Cert.FanArea
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body stores, as a function of the two blocks it loads -/

/-- The vector the body stores: the composition of its arithmetic over the loaded block of points `x0` (2048 rows of
    sixteen coordinates) and the loaded block of vertex counts `x1`. -/
def pay (x0 : Vec F S2048x16 .f32) (x1 : Vec F S2048 .i32) : FVec F S2048 .f32 :=
  k0_pay1
    (k0_pay9 x0 x1 (k0_pay2 x0) (k0_pay3 x0)
      (k0_pay6 x0 x1 (k0_pay2 x0) (k0_pay3 x0) (k0_pay4 x0 x1) (k0_pay5 x0))
      (k0_pay7 x0 (k0_pay2 x0) (k0_pay3 x0)) k0_pay8)
    (k0_pay10 x0 (k0_pay2 x0) (k0_pay3 x0)) (k0_pay11 x1) 5#32

/-- Row `r` of what the body stores is the fan-triangulation area of row `r` of the points with row `r`'s count: every
    operation of the body is lane-wise except the sixteen column reads, and column `o` read at row `r` is the block's
    entry `(r, o)`. -/
theorem pay_apply (x0 : Vec F S2048x16 .f32) (x1 : Vec F S2048 .i32) (r : Fin 2048) :
    pay x0 x1 (ix1 r) = areaRow (fun k => x0 (ix2 r k)) (x1 (ix1 r)) := by
  unfold pay k0_pay1 k0_pay9 k0_pay6 k0_pay4 k0_pay5 k0_pay7 k0_pay10 k0_pay11 k0_pay8 k0_pay2 k0_pay3
  simp only [column_eq (b := 16) 0 (by decide), column_eq (b := 16) 1 (by decide), column_eq (b := 16) 2 (by decide),
    column_eq (b := 16) 3 (by decide), column_eq (b := 16) 4 (by decide), column_eq (b := 16) 5 (by decide),
    column_eq (b := 16) 6 (by decide), column_eq (b := 16) 7 (by decide), column_eq (b := 16) 8 (by decide),
    column_eq (b := 16) 9 (by decide), column_eq (b := 16) 10 (by decide), column_eq (b := 16) 11 (by decide),
    column_eq (b := 16) 12 (by decide), column_eq (b := 16) 13 (by decide), column_eq (b := 16) 14 (by decide),
    column_eq (b := 16) 15 (by decide)]
  rfl

/-- So a row of the result depends on that row of the two blocks alone. -/
theorem pay_row (x0 : Vec F S2048x16 .f32) (x1 : Vec F S2048 .i32) (j : S2048.Idx) :
    pay x0 x1 j = areaRow (fun k => x0 (ix2 (j 0) k)) (x1 j) := by
  obtain ⟨r, rfl⟩ : ∃ r : Fin 2048, j = ix1 r := ⟨j 0, eq_ix1 j⟩
  exact pay_apply x0 x1 r

/-! ## The body's accesses and its triple -/

abbrev r0 : Rect S2048x16 := Rect.unit (s := S2048x16) ![0, 0] S2048x16.size inb_S2048x16_S2048x16_0_0
abbrev r1 : Rect S2048 := Rect.unit (s := S2048) ![0] S2048.size inb_S2048_S2048_0

/-- The result buffer after the body: its one store, of `pay` of the two whole loads. -/
def out2 (x0 : Vec F S2048x16 .f32) (x1 : Vec F S2048 .i32) : Vec F S2048 .f32 :=
  View.canon [⟨r1, pay (View.ld x0 r0) (View.ld x1 r1)⟩]

/-- The one store covers the buffer. -/
theorem cover2 (p0 : Vec F S2048 .f32) (y : S2048.Idx) :
    ∃ pc ∈ ([⟨r1, p0⟩] : List (View.Piece (Elt F) S2048 .f32)), y ∈ pc.1.set :=
  View.cover_of_tiled [⟨r1, p0⟩] S2048.size (by rfl) y

theorem hz2 : (![0, 0] : Fin 2 → Nat) = fun _ => 0 := funext fun a => by fin_cases a <;> rfl
theorem hz1 : (![0] : Fin 1 → Nat) = fun _ => 0 := funext fun a => by fin_cases a; rfl

/-- The accesses are the whole buffers, so the result buffer holds `pay` of the two buffers' contents. -/
theorem out2_eq (x0 : Vec F S2048x16 .f32) (x1 : Vec F S2048 .i32) : out2 x0 x1 = pay x0 x1 := by
  unfold out2
  rw [View.canon_unit_zero hz1]
  simp only [View.ld_unit_zero (S := S2048x16) hz2, View.ld_unit_zero (S := S2048) hz1]

set_option maxHeartbeats 1000000 in
/-- The body on whole staging memrefs, the inputs' at contents `x0`, `x1` and the result's at anything, runs to the
    continuation with the inputs' unchanged and the result's at `out2 x0 x1`. -/
theorem sound_kernel (c : Dev nD) (E : Set ℕ) (i : grid0.Coords) (arg1 : Memref sig .tc .vmem S2048x16 .f32) (harg1 : arg1.IsWhole)
    (arg2 : Memref sig .tc .vmem S2048 .i32) (harg2 : arg2.IsWhole) (arg3 : Memref sig .tc .vmem S2048 .f32) (harg3 : arg3.IsWhole)
    (x0 : Vec F S2048x16 .f32) (x1 : Vec F S2048 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__area_kernel i arg1 harg1 arg2 harg2 arg3 harg3) K := by
  simp only [cc0__area_kernel_eq_skeleton]; unfold cc0__area_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The proof data -/

/-- The whole result of the two argument arrays as the region finds them. -/
def G (c : Dev nD) : S4000000.Idx → Elt F .f32 :=
  wholeArea (V m c main_arg0 : S4000000x16.Idx → Elt F .f32) (V m c main_arg1 : S4000000.Idx → Elt F .i32)

/-- Block `t` of the whole result: its rows inside the array. -/
def gblk (c : Dev nD) (t : Fin cfg0.N) : (win0_2.xblock (grid0.coords t)).Idx → Elt F .f32 :=
  ((cfg0.win 2).blk t).view.read (Elt F) (G m c)

/-- The proof data of the pipeline on core `c`: the arrays as the region finds them; after the body at point `t` each
    input's staging buffer at its block and the result's at block `t` of the whole result — each on the rows inside the
    array; past the array's end (the last point's block overhangs it) a filler nothing reads; the class's invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => FloatOps.ofBits .f32 0x00000000#32) (iblk m c 0 t)
    | ⟨1, _⟩ => win0_1.fill (grid0.coords t) (fun _ => 0#32) (iblk m c 1 t)
    | ⟨2, _⟩ => win0_2.fill (grid0.coords t) (fun _ => FloatOps.ofBits .f32 0x00000000#32) (gblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t
    = win0_0.fill (grid0.coords t) (fun _ => FloatOps.ofBits .f32 0x00000000#32) (iblk m c 0 t) := by dsimp only [dats]
theorem after_1 (c : Dev nD) (t : Fin cfg0.N) : (dats m 0 c).after 1 t
    = win0_1.fill (grid0.coords t) (fun _ => 0#32) (iblk m c 1 t) := by dsimp only [dats]
theorem after_2 (c : Dev nD) (t : Fin cfg0.N) : (dats m 0 c).after 2 t
    = win0_2.fill (grid0.coords t) (fun _ => FloatOps.ofBits .f32 0x00000000#32) (gblk m c t) := by dsimp only [dats]

/-- What the body finds: each input's buffer just fetched — its block on the rows inside the array, anything elsewhere —, -/
theorem before_0 (c : Dev nD) (t : Fin cfg0.N) (d) :
    (dats m 0 c).before 0 t d = win0_0.fill (grid0.coords t) d (iblk m c 0 t) := by
  rw [(dats m 0 c).before_fetched 0 t (fetch0_0 t)]; rfl
theorem before_1 (c : Dev nD) (t : Fin cfg0.N) (d) :
    (dats m 0 c).before 1 t d = win0_1.fill (grid0.coords t) d (iblk m c 1 t) := by
  rw [(dats m 0 c).before_fetched 1 t (fetch0_1 t)]; rfl
/-- and the result's buffer at anything (every point writes it back). -/
theorem before_2 (c : Dev nD) (t : Fin cfg0.N) (d) : (dats m 0 c).before 2 t d = d :=
  (dats m 0 c).before_out_reset 2 rfl t (by
    by_cases h : t.val = 0
    · exact .inl h
    · exact .inr ⟨h, flush0_2 _⟩) d

/-! ## Where the blocks sit -/

/-- The printed index maps and cuts, decided over the grid: point `t`'s blocks are block row `t` of each array (the points'
    spanning all sixteen columns), cut to the `min 2048 (4000000 - 2048 t)` rows that lie inside the array. -/
theorem idx_facts : ∀ t : Fin cfg0.N,
    win0_0.index t (0 : Fin 2) = t.val ∧ win0_0.index t (1 : Fin 2) = 0
    ∧ win0_1.index t (0 : Fin 1) = t.val ∧ win0_2.index t (0 : Fin 1) = t.val
    ∧ win0_0.xsize (grid0.coords t) (0 : Fin 2) = min 2048 (4000000 - t.val * 2048)
    ∧ win0_0.xsize (grid0.coords t) (1 : Fin 2) = 16
    ∧ win0_1.xsize (grid0.coords t) (0 : Fin 1) = min 2048 (4000000 - t.val * 2048)
    ∧ win0_2.xsize (grid0.coords t) (0 : Fin 1) = min 2048 (4000000 - t.val * 2048) :=
  (by decide +kernel : ∀ t : Fin grid0.N, _)

/-- THE BODY'S RESULT ON THE ROWS INSIDE THE ARRAY: whatever fills the two input buffers past the array's end, the rows of
    `pay` that the write-back moves are block `t` of the whole result — row `j` of the block is row `2048 t + j` of the
    arrays, in all three windows. -/
theorem cut_pay (c : Dev nD) (t : Fin cfg0.N) (d0 : S2048x16.Idx → Elt F .f32) (d1 : S2048.Idx → Elt F .i32) :
    win0_2.cut (grid0.coords t) (pay (win0_0.fill (grid0.coords t) d0 (iblk m c 0 t)) (win0_1.fill (grid0.coords t) d1 (iblk m c 1 t)))
      = gblk m c t := by
  obtain ⟨e00, e01, e1, e2, s00, s01, s1, s2⟩ := idx_facts t
  funext j
  have hj : (j 0).val < win0_2.xsize (grid0.coords t) 0 := (j 0).isLt
  show pay _ _ (win0_2.xinj (grid0.coords t) j) = G m c (((cfg0.win 2).blk t).view.emb j)
  rw [pay_row]
  unfold G wholeArea
  refine areaRow_congr (fun k => ?_) ?_
  · have hm : win0_0.moved (grid0.coords t) (ix2 ((win0_2.xinj (grid0.coords t) j) 0) k) = true :=
      (win0_0.moved_iff _ _).mpr fun a => by
        match a with
        | ⟨0, _⟩ => show (j 0).val < win0_0.xsize (grid0.coords t) 0; omega
        | ⟨1, _⟩ => show k.val < win0_0.xsize (grid0.coords t) 1; have := k.isLt; omega
    unfold Window.fill
    rw [dif_pos hm]
    unfold iblk
    rw [View.read_apply]
    refine congrArg (V m c main_arg0 : S4000000x16.Idx → Elt F .f32) (funext fun a => Fin.ext ?_)
    match a with
    | ⟨0, _⟩ => show win0_0.index t 0 * 2048 + 1 * (j 0).val = win0_2.index t 0 * 2048 + 1 * (j 0).val; omega
    | ⟨1, _⟩ => show win0_0.index t 1 * 16 + 1 * k.val = k.val; omega
  · have hm : win0_1.moved (grid0.coords t) (win0_2.xinj (grid0.coords t) j) = true :=
      (win0_1.moved_iff _ _).mpr fun a => by
        match a with
        | ⟨0, _⟩ => show (j 0).val < win0_1.xsize (grid0.coords t) 0; omega
    unfold Window.fill
    rw [dif_pos hm]
    unfold iblk
    rw [View.read_apply]
    refine congrArg (V m c main_arg1 : S4000000.Idx → Elt F .i32) (funext fun a => Fin.ext ?_)
    match a with
    | ⟨0, _⟩ => show win0_1.index t 0 * 2048 + 1 * (j 0).val = win0_2.index t 0 * 2048 + 1 * (j 0).val; omega

/-! ## The body obligation -/

/-- The library's body obligation, every window stated on the rows inside the array only: the inputs' buffers arrive holding
    their blocks filled out with anything and leave as they came; the result's leaves holding `pay` of those, whose rows
    inside the array are block `t` of the whole result (`cut_pay`). -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (sound_kernel (F := F) c Set.univ (grid0.coords t) _ _ _ _ _ _
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have hx : win0_0.cut (grid0.coords t) ((dats m 0 c).after 0 t) = iblk m c 0 t := by
    rw [after_0]; exact win0_0.cut_fill _ _ _
  have hy : win0_1.cut (grid0.coords t) ((dats m 0 c).after 1 t) = iblk m c 1 t := by
    rw [after_1]; exact win0_1.cut_fill _ _ _
  have hs : win0_2.cut (grid0.coords t) ((dats m 0 c).after 2 t) = gblk m c t := by
    rw [after_2]; exact win0_2.cut_fill _ _ _
  have hres : win0_2.fill (grid0.coords t)
        (out2 (win0_0.fill (grid0.coords t) d0 (iblk m c 0 t)) (win0_1.fill (grid0.coords t) d1 (iblk m c 1 t))) (gblk m c t)
      = out2 (win0_0.fill (grid0.coords t) d0 (iblk m c 0 t)) (win0_1.fill (grid0.coords t) d1 (iblk m c 1 t)) := by
    rw [out2_eq, ← cut_pay m c t d0 d1]; exact win0_2.fill_cut _ _
  isplitl [H0]
  · iexists d0
    change _ ⊢ owns (c : Thread nD τ) (stage0_0 (cfg0.slots t 0)) fullShare
      (win0_0.fill (grid0.coords t) d0 (win0_0.cut (grid0.coords t) ((dats m 0 c).after 0 t)))
    rw [hx]; try iexact H0
  isplitl [H1]
  · iexists d1
    change _ ⊢ owns (c : Thread nD τ) (stage0_1 (cfg0.slots t 1)) fullShare
      (win0_1.fill (grid0.coords t) d1 (win0_1.cut (grid0.coords t) ((dats m 0 c).after 1 t)))
    rw [hy]; try iexact H1
  · iexists out2 (win0_0.fill (grid0.coords t) d0 (iblk m c 0 t)) (win0_1.fill (grid0.coords t) d1 (iblk m c 1 t))
    change _ ⊢ owns (c : Thread nD τ) (stage0_2 (cfg0.slots t 2)) fullShare
      (win0_2.fill (grid0.coords t) (out2 (win0_0.fill (grid0.coords t) d0 (iblk m c 0 t)) (win0_1.fill (grid0.coords t) d1 (iblk m c 1 t)))
        (win0_2.cut (grid0.coords t) ((dats m 0 c).after 2 t)))
    rw [hs, hres]; try iexact H2

/-! ## The run, the frame, and the result array -/

set_option backward.isDefEq.respectTransparency.types false in
/-- At the compiled mesh, for any values, from any memory with zero counters: every weakly fair execution of @main
    terminates, and every final state has every array of the pipeline at what the library computes from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- What point `t` writes back is block `t` of the whole result. -/
theorem flushed_eq (c : Dev nD) (t : Fin cfg0.N) :
    (dats m 0 c).flushed 2 t = ((cfg0.win 2).blk t).view.read (Elt F) (G m c) := by
  show (cfg0.win 2).cut (grid0.coords t) ((dats m 0 c).after 2 t) = _
  rw [after_2]; exact win0_2.cut_fill _ _ _

/-- An entry of the result array is in point `t`'s block iff it is one of the block's rows inside the array. -/
theorem mem_blk (t : Fin cfg0.N) (i : S4000000.Idx) :
    i ∈ ((cfg0.win 2).blk t).view.set ↔ ∀ a : Fin 1, win0_2.index t a * S2048.size a ≤ (i a).val
      ∧ (i a).val < win0_2.index t a * S2048.size a + win0_2.xsize (grid0.coords t) a := by
  show i ∈ ((View.whole main_v0).slice (win0_2.rect t)).set ↔ _
  rw [View.set_slice_whole, Rect.mem_set_unit]
  exact Iff.rfl

/-- Every entry is in some point's block: entry `i` in that of point `i / 2048`. -/
theorem cover (i : S4000000.Idx) : ∃ t : Fin cfg0.N, (cfg0.win 2).flush t = true ∧ i ∈ ((cfg0.win 2).blk t).view.set := by
  have hi : (i 0).val < 4000000 := (i 0).isLt
  have hN : cfg0.N = 1954 := N_0
  have ht : (i 0).val / 2048 < cfg0.N := by rw [hN]; omega
  refine ⟨⟨(i 0).val / 2048, ht⟩, flush0_2 _, ?_⟩
  rw [mem_blk]
  obtain ⟨-, -, -, e2, -, -, -, s2⟩ := idx_facts ⟨(i 0).val / 2048, ht⟩
  intro a
  match a with
  | ⟨0, _⟩ =>
    show win0_2.index ⟨(i 0).val / 2048, ht⟩ 0 * 2048 ≤ (i 0).val
      ∧ (i 0).val < win0_2.index ⟨(i 0).val / 2048, ht⟩ 0 * 2048 + win0_2.xsize (grid0.coords ⟨(i 0).val / 2048, ht⟩) 0
    rw [e2, s2]
    show (i 0).val / 2048 * 2048 ≤ (i 0).val ∧ (i 0).val < (i 0).val / 2048 * 2048 + min 2048 (4000000 - (i 0).val / 2048 * 2048)
    omega

/-- The result array after the run is the whole result of the argument arrays. -/
theorem final (c : Dev nD) : (dats m 0 c).arrAt 2 cfg0.N = G m c :=
  (dats m 0 c).arrAt_eq_of_cover 2 (G m c) (fun t _ => flushed_eq m c t) cover

/-- The run re-posted: the result array at the whole result of the argument arrays as launched, those unchanged. -/
theorem run : θ_run defs (onTc (τ := τ) (main (F := F))) ⟨m, fun _ => 0, ρ⟩ fun r => ∀ c : Dev nD,
      r.2.mem ((c.tc : Thread nD τ).loc main_v0)
        = wholeArea (m ((c.tc : Thread nD τ).loc main_arg0) : S4000000x16.Idx → Elt F .f32) (m ((c.tc : Thread nD τ).loc main_arg1) : S4000000.Idx → Elt F .i32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Kernel.Body

end
-- ==== Proof.KernelIdealBody.lean ====
/-
  The idealized kernel: what one grid point does, and what the whole run leaves.

  The grid has 1954 points; point `t` stages rows 2048 t … 2048 t + 2047 of the points and of the vertex counts, and writes the
  same rows of the result back. The last point's block overhangs the arrays: only its first 256 rows are moved either way, and
  what the other 1792 rows of the staging buffers hold is not named.

  The body loads the two blocks whole, reads the sixteen columns of the points, and stores, row by row, the fan-triangulation
  area of the row (Proof/FanArea.lean). Since every operation acts on a row by itself, row `j` of what it stores depends only
  on row `j` of the two blocks; on the rows the write-back moves these are rows of the argument arrays, so the moved part of the
  stored block is block `t` of ONE function of the whole arrays, whatever fills the buffers past the arrays' end. The blocks of
  the 1954 points cover the result array (entry `i` lies in the block of point `i / 2048`), hence after the run the result
  array is that function of the arguments, and the arguments are unchanged.

  Stated for any float instance: the same text gives the frame of the program read word by word and of the program read on the
  extended reals.
-/
import proofs.«136837_j23639499997217_2_alg».proof.Proof.Gen.KernelIdeal.Frame
import proofs.«136837_j23639499997217_2_alg».proof.Proof.Gen.KernelIdeal.Skeleton
import proofs.«136837_j23639499997217_2_alg».proof.Proof.FanArea
import Idealize.ShloMosaic.Lib.Pipeline.Value

set_option maxRecDepth 16384

noncomputable section

namespace Cert.KernelIdeal.Body

open Cert.KernelIdeal Cert.KernelIdeal.Gen Cert.FanArea
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body stores, as a function of the two blocks it loads -/

/-- The vector the body stores: the composition of its arithmetic over the loaded block of points `x0` (2048 rows of
    sixteen coordinates) and the loaded block of vertex counts `x1`. -/
def pay (x0 : Vec F S2048x16 .f32) (x1 : Vec F S2048 .i32) : FVec F S2048 .f32 :=
  k0_pay1
    (k0_pay9 x0 x1 (k0_pay2 x0) (k0_pay3 x0)
      (k0_pay6 x0 x1 (k0_pay2 x0) (k0_pay3 x0) (k0_pay4 x0 x1) (k0_pay5 x0))
      (k0_pay7 x0 (k0_pay2 x0) (k0_pay3 x0)) k0_pay8)
    (k0_pay10 x0 (k0_pay2 x0) (k0_pay3 x0)) (k0_pay11 x1) 5#32

/-- Row `r` of what the body stores is the fan-triangulation area of row `r` of the points with row `r`'s count: every
    operation of the body is lane-wise except the sixteen column reads, and column `o` read at row `r` is the block's
    entry `(r, o)`. -/
theorem pay_apply (x0 : Vec F S2048x16 .f32) (x1 : Vec F S2048 .i32) (r : Fin 2048) :
    pay x0 x1 (ix1 r) = areaRow (fun k => x0 (ix2 r k)) (x1 (ix1 r)) := by
  unfold pay k0_pay1 k0_pay9 k0_pay6 k0_pay4 k0_pay5 k0_pay7 k0_pay10 k0_pay11 k0_pay8 k0_pay2 k0_pay3
  simp only [column_eq (b := 16) 0 (by decide), column_eq (b := 16) 1 (by decide), column_eq (b := 16) 2 (by decide),
    column_eq (b := 16) 3 (by decide), column_eq (b := 16) 4 (by decide), column_eq (b := 16) 5 (by decide),
    column_eq (b := 16) 6 (by decide), column_eq (b := 16) 7 (by decide), column_eq (b := 16) 8 (by decide),
    column_eq (b := 16) 9 (by decide), column_eq (b := 16) 10 (by decide), column_eq (b := 16) 11 (by decide),
    column_eq (b := 16) 12 (by decide), column_eq (b := 16) 13 (by decide), column_eq (b := 16) 14 (by decide),
    column_eq (b := 16) 15 (by decide)]
  rfl

/-- So a row of the result depends on that row of the two blocks alone. -/
theorem pay_row (x0 : Vec F S2048x16 .f32) (x1 : Vec F S2048 .i32) (j : S2048.Idx) :
    pay x0 x1 j = areaRow (fun k => x0 (ix2 (j 0) k)) (x1 j) := by
  obtain ⟨r, rfl⟩ : ∃ r : Fin 2048, j = ix1 r := ⟨j 0, eq_ix1 j⟩
  exact pay_apply x0 x1 r

/-! ## The body's accesses and its triple -/

abbrev r0 : Rect S2048x16 := Rect.unit (s := S2048x16) ![0, 0] S2048x16.size inb_S2048x16_S2048x16_0_0
abbrev r1 : Rect S2048 := Rect.unit (s := S2048) ![0] S2048.size inb_S2048_S2048_0

/-- The result buffer after the body: its one store, of `pay` of the two whole loads. -/
def out2 (x0 : Vec F S2048x16 .f32) (x1 : Vec F S2048 .i32) : Vec F S2048 .f32 :=
  View.canon [⟨r1, pay (View.ld x0 r0) (View.ld x1 r1)⟩]

/-- The one store covers the buffer. -/
theorem cover2 (p0 : Vec F S2048 .f32) (y : S2048.Idx) :
    ∃ pc ∈ ([⟨r1, p0⟩] : List (View.Piece (Elt F) S2048 .f32)), y ∈ pc.1.set :=
  View.cover_of_tiled [⟨r1, p0⟩] S2048.size (by rfl) y

theorem hz2 : (![0, 0] : Fin 2 → Nat) = fun _ => 0 := funext fun a => by fin_cases a <;> rfl
theorem hz1 : (![0] : Fin 1 → Nat) = fun _ => 0 := funext fun a => by fin_cases a; rfl

/-- The accesses are the whole buffers, so the result buffer holds `pay` of the two buffers' contents. -/
theorem out2_eq (x0 : Vec F S2048x16 .f32) (x1 : Vec F S2048 .i32) : out2 x0 x1 = pay x0 x1 := by
  unfold out2
  rw [View.canon_unit_zero hz1]
  simp only [View.ld_unit_zero (S := S2048x16) hz2, View.ld_unit_zero (S := S2048) hz1]

set_option maxHeartbeats 1000000 in
/-- The body on whole staging memrefs, the inputs' at contents `x0`, `x1` and the result's at anything, runs to the
    continuation with the inputs' unchanged and the result's at `out2 x0 x1`. -/
theorem sound_kernel (c : Dev nD) (E : Set ℕ) (i : grid0.Coords) (arg1 : Memref sig .tc .vmem S2048x16 .f32) (harg1 : arg1.IsWhole)
    (arg2 : Memref sig .tc .vmem S2048 .i32) (harg2 : arg2.IsWhole) (arg3 : Memref sig .tc .vmem S2048 .f32) (harg3 : arg3.IsWhole)
    (x0 : Vec F S2048x16 .f32) (x1 : Vec F S2048 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__area_kernel i arg1 harg1 arg2 harg2 arg3 harg3) K := by
  simp only [cc0__area_kernel_eq_skeleton]; unfold cc0__area_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The proof data -/

/-- The whole result of the two argument arrays as the region finds them. -/
def G (c : Dev nD) : S4000000.Idx → Elt F .f32 :=
  wholeArea (V m c main_arg0 : S4000000x16.Idx → Elt F .f32) (V m c main_arg1 : S4000000.Idx → Elt F .i32)

/-- Block `t` of the whole result: its rows inside the array. -/
def gblk (c : Dev nD) (t : Fin cfg0.N) : (win0_2.xblock (grid0.coords t)).Idx → Elt F .f32 :=
  ((cfg0.win 2).blk t).view.read (Elt F) (G m c)

/-- The proof data of the pipeline on core `c`: the arrays as the region finds them; after the body at point `t` each
    input's staging buffer at its block and the result's at block `t` of the whole result — each on the rows inside the
    array; past the array's end (the last point's block overhangs it) a filler nothing reads; the class's invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => FloatOps.ofBits .f32 0x00000000#32) (iblk m c 0 t)
    | ⟨1, _⟩ => win0_1.fill (grid0.coords t) (fun _ => 0#32) (iblk m c 1 t)
    | ⟨2, _⟩ => win0_2.fill (grid0.coords t) (fun _ => FloatOps.ofBits .f32 0x00000000#32) (gblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t
    = win0_0.fill (grid0.coords t) (fun _ => FloatOps.ofBits .f32 0x00000000#32) (iblk m c 0 t) := by dsimp only [dats]
theorem after_1 (c : Dev nD) (t : Fin cfg0.N) : (dats m 0 c).after 1 t
    = win0_1.fill (grid0.coords t) (fun _ => 0#32) (iblk m c 1 t) := by dsimp only [dats]
theorem after_2 (c : Dev nD) (t : Fin cfg0.N) : (dats m 0 c).after 2 t
    = win0_2.fill (grid0.coords t) (fun _ => FloatOps.ofBits .f32 0x00000000#32) (gblk m c t) := by dsimp only [dats]

/-- What the body finds: each input's buffer just fetched — its block on the rows inside the array, anything elsewhere —, -/
theorem before_0 (c : Dev nD) (t : Fin cfg0.N) (d) :
    (dats m 0 c).before 0 t d = win0_0.fill (grid0.coords t) d (iblk m c 0 t) := by
  rw [(dats m 0 c).before_fetched 0 t (fetch0_0 t)]; rfl
theorem before_1 (c : Dev nD) (t : Fin cfg0.N) (d) :
    (dats m 0 c).before 1 t d = win0_1.fill (grid0.coords t) d (iblk m c 1 t) := by
  rw [(dats m 0 c).before_fetched 1 t (fetch0_1 t)]; rfl
/-- and the result's buffer at anything (every point writes it back). -/
theorem before_2 (c : Dev nD) (t : Fin cfg0.N) (d) : (dats m 0 c).before 2 t d = d :=
  (dats m 0 c).before_out_reset 2 rfl t (by
    by_cases h : t.val = 0
    · exact .inl h
    · exact .inr ⟨h, flush0_2 _⟩) d

/-! ## Where the blocks sit -/

/-- The printed index maps and cuts, decided over the grid: point `t`'s blocks are block row `t` of each array (the points'
    spanning all sixteen columns), cut to the `min 2048 (4000000 - 2048 t)` rows that lie inside the array. -/
theorem idx_facts : ∀ t : Fin cfg0.N,
    win0_0.index t (0 : Fin 2) = t.val ∧ win0_0.index t (1 : Fin 2) = 0
    ∧ win0_1.index t (0 : Fin 1) = t.val ∧ win0_2.index t (0 : Fin 1) = t.val
    ∧ win0_0.xsize (grid0.coords t) (0 : Fin 2) = min 2048 (4000000 - t.val * 2048)
    ∧ win0_0.xsize (grid0.coords t) (1 : Fin 2) = 16
    ∧ win0_1.xsize (grid0.coords t) (0 : Fin 1) = min 2048 (4000000 - t.val * 2048)
    ∧ win0_2.xsize (grid0.coords t) (0 : Fin 1) = min 2048 (4000000 - t.val * 2048) :=
  (by decide +kernel : ∀ t : Fin grid0.N, _)

/-- THE BODY'S RESULT ON THE ROWS INSIDE THE ARRAY: whatever fills the two input buffers past the array's end, the rows of
    `pay` that the write-back moves are block `t` of the whole result — row `j` of the block is row `2048 t + j` of the
    arrays, in all three windows. -/
theorem cut_pay (c : Dev nD) (t : Fin cfg0.N) (d0 : S2048x16.Idx → Elt F .f32) (d1 : S2048.Idx → Elt F .i32) :
    win0_2.cut (grid0.coords t) (pay (win0_0.fill (grid0.coords t) d0 (iblk m c 0 t)) (win0_1.fill (grid0.coords t) d1 (iblk m c 1 t)))
      = gblk m c t := by
  obtain ⟨e00, e01, e1, e2, s00, s01, s1, s2⟩ := idx_facts t
  funext j
  have hj : (j 0).val < win0_2.xsize (grid0.coords t) 0 := (j 0).isLt
  show pay _ _ (win0_2.xinj (grid0.coords t) j) = G m c (((cfg0.win 2).blk t).view.emb j)
  rw [pay_row]
  unfold G wholeArea
  refine areaRow_congr (fun k => ?_) ?_
  · have hm : win0_0.moved (grid0.coords t) (ix2 ((win0_2.xinj (grid0.coords t) j) 0) k) = true :=
      (win0_0.moved_iff _ _).mpr fun a => by
        match a with
        | ⟨0, _⟩ => show (j 0).val < win0_0.xsize (grid0.coords t) 0; omega
        | ⟨1, _⟩ => show k.val < win0_0.xsize (grid0.coords t) 1; have := k.isLt; omega
    unfold Window.fill
    rw [dif_pos hm]
    unfold iblk
    rw [View.read_apply]
    refine congrArg (V m c main_arg0 : S4000000x16.Idx → Elt F .f32) (funext fun a => Fin.ext ?_)
    match a with
    | ⟨0, _⟩ => show win0_0.index t 0 * 2048 + 1 * (j 0).val = win0_2.index t 0 * 2048 + 1 * (j 0).val; omega
    | ⟨1, _⟩ => show win0_0.index t 1 * 16 + 1 * k.val = k.val; omega
  · have hm : win0_1.moved (grid0.coords t) (win0_2.xinj (grid0.coords t) j) = true :=
      (win0_1.moved_iff _ _).mpr fun a => by
        match a with
        | ⟨0, _⟩ => show (j 0).val < win0_1.xsize (grid0.coords t) 0; omega
    unfold Window.fill
    rw [dif_pos hm]
    unfold iblk
    rw [View.read_apply]
    refine congrArg (V m c main_arg1 : S4000000.Idx → Elt F .i32) (funext fun a => Fin.ext ?_)
    match a with
    | ⟨0, _⟩ => show win0_1.index t 0 * 2048 + 1 * (j 0).val = win0_2.index t 0 * 2048 + 1 * (j 0).val; omega

/-! ## The body obligation -/

/-- The library's body obligation, every window stated on the rows inside the array only: the inputs' buffers arrive holding
    their blocks filled out with anything and leave as they came; the result's leaves holding `pay` of those, whose rows
    inside the array are block `t` of the whole result (`cut_pay`). -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (sound_kernel (F := F) c Set.univ (grid0.coords t) _ _ _ _ _ _
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have hx : win0_0.cut (grid0.coords t) ((dats m 0 c).after 0 t) = iblk m c 0 t := by
    rw [after_0]; exact win0_0.cut_fill _ _ _
  have hy : win0_1.cut (grid0.coords t) ((dats m 0 c).after 1 t) = iblk m c 1 t := by
    rw [after_1]; exact win0_1.cut_fill _ _ _
  have hs : win0_2.cut (grid0.coords t) ((dats m 0 c).after 2 t) = gblk m c t := by
    rw [after_2]; exact win0_2.cut_fill _ _ _
  have hres : win0_2.fill (grid0.coords t)
        (out2 (win0_0.fill (grid0.coords t) d0 (iblk m c 0 t)) (win0_1.fill (grid0.coords t) d1 (iblk m c 1 t))) (gblk m c t)
      = out2 (win0_0.fill (grid0.coords t) d0 (iblk m c 0 t)) (win0_1.fill (grid0.coords t) d1 (iblk m c 1 t)) := by
    rw [out2_eq, ← cut_pay m c t d0 d1]; exact win0_2.fill_cut _ _
  isplitl [H0]
  · iexists d0
    change _ ⊢ owns (c : Thread nD τ) (stage0_0 (cfg0.slots t 0)) fullShare
      (win0_0.fill (grid0.coords t) d0 (win0_0.cut (grid0.coords t) ((dats m 0 c).after 0 t)))
    rw [hx]; try iexact H0
  isplitl [H1]
  · iexists d1
    change _ ⊢ owns (c : Thread nD τ) (stage0_1 (cfg0.slots t 1)) fullShare
      (win0_1.fill (grid0.coords t) d1 (win0_1.cut (grid0.coords t) ((dats m 0 c).after 1 t)))
    rw [hy]; try iexact H1
  · iexists out2 (win0_0.fill (grid0.coords t) d0 (iblk m c 0 t)) (win0_1.fill (grid0.coords t) d1 (iblk m c 1 t))
    change _ ⊢ owns (c : Thread nD τ) (stage0_2 (cfg0.slots t 2)) fullShare
      (win0_2.fill (grid0.coords t) (out2 (win0_0.fill (grid0.coords t) d0 (iblk m c 0 t)) (win0_1.fill (grid0.coords t) d1 (iblk m c 1 t)))
        (win0_2.cut (grid0.coords t) ((dats m 0 c).after 2 t)))
    rw [hs, hres]; try iexact H2

/-! ## The run, the frame, and the result array -/

set_option backward.isDefEq.respectTransparency.types false in
/-- At the compiled mesh, for any values, from any memory with zero counters: every weakly fair execution of @main
    terminates, and every final state has every array of the pipeline at what the library computes from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- What point `t` writes back is block `t` of the whole result. -/
theorem flushed_eq (c : Dev nD) (t : Fin cfg0.N) :
    (dats m 0 c).flushed 2 t = ((cfg0.win 2).blk t).view.read (Elt F) (G m c) := by
  show (cfg0.win 2).cut (grid0.coords t) ((dats m 0 c).after 2 t) = _
  rw [after_2]; exact win0_2.cut_fill _ _ _

/-- An entry of the result array is in point `t`'s block iff it is one of the block's rows inside the array. -/
theorem mem_blk (t : Fin cfg0.N) (i : S4000000.Idx) :
    i ∈ ((cfg0.win 2).blk t).view.set ↔ ∀ a : Fin 1, win0_2.index t a * S2048.size a ≤ (i a).val
      ∧ (i a).val < win0_2.index t a * S2048.size a + win0_2.xsize (grid0.coords t) a := by
  show i ∈ ((View.whole main_v0).slice (win0_2.rect t)).set ↔ _
  rw [View.set_slice_whole, Rect.mem_set_unit]
  exact Iff.rfl

/-- Every entry is in some point's block: entry `i` in that of point `i / 2048`. -/
theorem cover (i : S4000000.Idx) : ∃ t : Fin cfg0.N, (cfg0.win 2).flush t = true ∧ i ∈ ((cfg0.win 2).blk t).view.set := by
  have hi : (i 0).val < 4000000 := (i 0).isLt
  have hN : cfg0.N = 1954 := N_0
  have ht : (i 0).val / 2048 < cfg0.N := by rw [hN]; omega
  refine ⟨⟨(i 0).val / 2048, ht⟩, flush0_2 _, ?_⟩
  rw [mem_blk]
  obtain ⟨-, -, -, e2, -, -, -, s2⟩ := idx_facts ⟨(i 0).val / 2048, ht⟩
  intro a
  match a with
  | ⟨0, _⟩ =>
    show win0_2.index ⟨(i 0).val / 2048, ht⟩ 0 * 2048 ≤ (i 0).val
      ∧ (i 0).val < win0_2.index ⟨(i 0).val / 2048, ht⟩ 0 * 2048 + win0_2.xsize (grid0.coords ⟨(i 0).val / 2048, ht⟩) 0
    rw [e2, s2]
    show (i 0).val / 2048 * 2048 ≤ (i 0).val ∧ (i 0).val < (i 0).val / 2048 * 2048 + min 2048 (4000000 - (i 0).val / 2048 * 2048)
    omega

/-- The result array after the run is the whole result of the argument arrays. -/
theorem final (c : Dev nD) : (dats m 0 c).arrAt 2 cfg0.N = G m c :=
  (dats m 0 c).arrAt_eq_of_cover 2 (G m c) (fun t _ => flushed_eq m c t) cover

/-- The run re-posted: the result array at the whole result of the argument arrays as launched, those unchanged. -/
theorem run : θ_run defs (onTc (τ := τ) (main (F := F))) ⟨m, fun _ => 0, ρ⟩ fun r => ∀ c : Dev nD,
      r.2.mem ((c.tc : Thread nD τ).loc main_v0)
        = wholeArea (m ((c.tc : Thread nD τ).loc main_arg0) : S4000000x16.Idx → Elt F .f32) (m ((c.tc : Thread nD τ).loc main_arg1) : S4000000.Idx → Elt F .i32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Body

end
-- ==== Proof.RefValue.lean ====
/-
  The reference, read index by index on the extended reals, is the fan-triangulation area of each row.

  The reference reshapes the points to [N, 8, 2], slices the apex p₀ (broadcast along the six triangles), the second vertices
  p₁ … p₆ and the third vertices p₂ … p₇, forms the cross product, halves its absolute value, masks triangle `k` by
  `k < n - 2` and sums over the six triangles from zero. Entry `(i, v, c)` of the reshaped points is entry `(i, 2 v + c)` of
  the argument (16 = 8 · 2 and 2 v + c < 16), so each slice read at triangle `k` is one column of row `i`: the apex columns 0
  and 1, the second vertex columns 2 k + 2 and 2 k + 3, the third vertex columns 2 k + 4 and 2 k + 5.
-/
import proofs.«136837_j23639499997217_2_alg».proof.Proof.Gen.ReferenceIdeal.Read
import proofs.«136837_j23639499997217_2_alg».proof.Proof.FanArea

noncomputable section

namespace Cert.ReferenceIdeal.RefValue

open Cert.ReferenceIdeal Cert.ReferenceIdeal.Read Cert.FanArea
open Idealize.ShloMosaic Idealize.ShloMosaic.ValueIdx

/-- An entry of the points whose coordinates are row `r` and column `c` is the entry `(r, c)`. -/
theorem read_eq {α : Type} (x0 : S4000000x16.Idx → α) (J : S4000000x16.Idx) (r : Fin 4000000) (c : Fin 16)
    (h0 : (J 0).val = r.val) (h1 : (J 1).val = c.val) : x0 J = x0 (ix2 r c) :=
  congrArg x0 (funext fun a => Fin.ext (by
    match a with
    | ⟨0, _⟩ => exact h0
    | ⟨1, _⟩ => exact h1))

/-- Unfold the reference's index maps (reshapes as quotient and remainder, slices as offsets, broadcasts as zero on a unit axis)
    and close the resulting arithmetic. -/
local macro "idx_arith" : tactic => `(tactic| (
  dsimp only [idx_main_v0, idx_main_v1, idx_main_v2, idx_main_v3, idx_main_v4, idx_main_v5, idx_main_v6, idx_main_v7, idx_main_v8,
    idx_main_v10, idx_main_v11, idx_main_v12, idx_main_v13, idx_main_v16, idx_main_v17, idx_main_v18, idx_main_v19, idx_main_v20,
    idx_main_v22, idx_main_v23, idx_main_v24, idx_main_v25, idx_main_v41]
  omega))

/-- The masked half cross product of row `i` at triangle `k` is triangle `k` of the row's fan. -/
theorem term_eq (x0 : (⟨S4000000x16, .f32⟩ : BufTy).Contents (Elt Ideal)) (x1 : (⟨S4000000, .i32⟩ : BufTy).Contents (Elt Ideal))
    (i : S4000000.Idx) (k : Fin 6) :
    val_main_v40 (F := Ideal) x0 x1 (idx_main_v41 i k) = tri (F := Ideal) (fun c => x0 (ix2 (i 0) c)) (x1 i) k := by
  have hk := k.isLt
  have hi := (i 0).isLt
  -- the apex
  have p1x : val_main_v8 (F := Ideal) x0 (idx_main_v41 i k) = x0 (ix2 (i 0) ⟨0, by omega⟩) := by
    rw [val_main_v8_apply, val_main_v5_apply, val_main_v4_apply, val_main_v1_apply, val_main_v0_apply]
    exact read_eq x0 _ (i 0) ⟨0, by omega⟩ (by idx_arith) (by idx_arith)
  have p1y : val_main_v20 (F := Ideal) x0 (idx_main_v41 i k) = x0 (ix2 (i 0) ⟨1, by omega⟩) := by
    rw [val_main_v20_apply, val_main_v17_apply, val_main_v16_apply, val_main_v1_apply, val_main_v0_apply]
    exact read_eq x0 _ (i 0) ⟨1, by omega⟩ (by idx_arith) (by idx_arith)
  -- the second vertex
  have p2x : val_main_v23 (F := Ideal) x0 (idx_main_v41 i k) = x0 (ix2 (i 0) ⟨2 * k.val + 2, by omega⟩) := by
    rw [val_main_v23_apply, val_main_v22_apply, val_main_v2_apply, val_main_v0_apply]
    exact read_eq x0 _ (i 0) ⟨2 * k.val + 2, by omega⟩ (by idx_arith) (by idx_arith)
  have p2y : val_main_v11 (F := Ideal) x0 (idx_main_v41 i k) = x0 (ix2 (i 0) ⟨2 * k.val + 3, by omega⟩) := by
    rw [val_main_v11_apply, val_main_v10_apply, val_main_v2_apply, val_main_v0_apply]
    exact read_eq x0 _ (i 0) ⟨2 * k.val + 3, by omega⟩ (by idx_arith) (by idx_arith)
  -- the third vertex, read four times
  have p3x : val_main_v7 (F := Ideal) x0 (idx_main_v41 i k) = x0 (ix2 (i 0) ⟨2 * k.val + 4, by omega⟩) := by
    rw [val_main_v7_apply, val_main_v6_apply, val_main_v3_apply, val_main_v0_apply]
    exact read_eq x0 _ (i 0) ⟨2 * k.val + 4, by omega⟩ (by idx_arith) (by idx_arith)
  have p3x' : val_main_v25 (F := Ideal) x0 (idx_main_v41 i k) = x0 (ix2 (i 0) ⟨2 * k.val + 4, by omega⟩) := by
    rw [val_main_v25_apply, val_main_v24_apply, val_main_v3_apply, val_main_v0_apply]
    exact read_eq x0 _ (i 0) ⟨2 * k.val + 4, by omega⟩ (by idx_arith) (by idx_arith)
  have p3y : val_main_v13 (F := Ideal) x0 (idx_main_v41 i k) = x0 (ix2 (i 0) ⟨2 * k.val + 5, by omega⟩) := by
    rw [val_main_v13_apply, val_main_v12_apply, val_main_v3_apply, val_main_v0_apply]
    exact read_eq x0 _ (i 0) ⟨2 * k.val + 5, by omega⟩ (by idx_arith) (by idx_arith)
  have p3y' : val_main_v19 (F := Ideal) x0 (idx_main_v41 i k) = x0 (ix2 (i 0) ⟨2 * k.val + 5, by omega⟩) := by
    rw [val_main_v19_apply, val_main_v18_apply, val_main_v3_apply, val_main_v0_apply]
    exact read_eq x0 _ (i 0) ⟨2 * k.val + 5, by omega⟩ (by idx_arith) (by idx_arith)
  -- the mask: triangle `k` counts when `k < n - 2`
  have hrow : idx_main_v34 (idx_main_v38 (idx_main_v41 i k)) = i :=
    funext fun a => Fin.ext (by match a with | ⟨0, _⟩ => rfl)
  have hmask : val_main_v39 (F := Ideal) x1 (idx_main_v41 i k)
      = IntOp.cmpi .slt (BitVec.ofNat 32 k.val) (IntOp.subi (x1 i) 2#32) := by
    rw [val_main_v39_apply, val_main_v37_apply, val_main_v33_apply, val_main_v32_apply, val_main_v38_apply,
      val_main_v36_apply, val_main_v34_apply, val_main_v35_apply, val_main_c_apply, hrow]
  have hhalf : val_main_v30 (F := Ideal) (idx_main_v41 i k) = (FloatOps.ofBits .f32 0x3F000000#32 : Ideal .f32) := by
    rw [val_main_v30_apply, val_main_cst_apply]
  have hzero : val_main_call0_v1 (F := Ideal) (idx_main_v41 i k) = (FloatOps.ofBits .f32 0x00000000#32 : Ideal .f32) := by
    rw [val_main_call0_v1_apply, val_main_call0_v0_apply, val_main_cst_0_apply]
  rw [val_main_v40_apply, hmask, hzero, val_main_v31_apply, hhalf, val_main_v29_apply, val_main_v28_apply, val_main_v15_apply,
    val_main_v27_apply, val_main_v9_apply, val_main_v14_apply, val_main_v21_apply, val_main_v26_apply,
    p1x, p1y, p2x, p2y, p3x, p3x', p3y, p3y']
  rfl

/-- The reference's result is the whole fan-triangulation area of its arguments: zero plus the sum over the six triangles
    on both sides, triangle by triangle the same term. -/
theorem ref_eq (x0 : (⟨S4000000x16, .f32⟩ : BufTy).Contents (Elt Ideal)) (x1 : (⟨S4000000, .i32⟩ : BufTy).Contents (Elt Ideal)) :
    val_main_v41 (F := Ideal) x0 x1 = wholeArea (F := Ideal) x0 x1 := by
  funext i
  rw [val_main_v41_apply, val_main_cst_1_apply]
  unfold wholeArea
  rw [areaRow_ideal]
  exact congrArg (_ + ·) (Finset.sum_congr rfl fun k _ => term_eq x0 x1 i k)

end Cert.ReferenceIdeal.RefValue

end
-- ==== Proof.lean ====
/-
  The fan-triangulation area kernel against its array-level reference.

  Both programs take N = 4 000 000 rows of sixteen numbers — the coordinates of eight points — and a vertex count per row, and
  return per row the sum over k = 0, …, 5 of the area of the triangle (p₀, p₍ₖ₊₁₎, p₍ₖ₊₂₎), half the absolute cross product, counted
  when k < n - 2. The kernel walks the rows in 1954 blocks of 2048 (the last block has 256 rows inside the arrays and overhangs
  them by 1792); in a block it reads the sixteen columns, forms the six cross products lane-wise and adds the masked halves to
  zero one after the other. The reference reshapes to [N, 8, 2], slices apex, second and third vertices, and sums the masked
  halves over the triangle axis.

  On the extended reals the two agree entry by entry: per row and triangle they are the same term of the same sixteen numbers
  (same subtractions and products in the same order, same constant 0.5, the same signed comparison read from either side), and
  the kernel's ordered sum from zero is the reference's zero plus the sum over the six triangles, addition of extended reals
  being commutative and associative. No entry needs to be finite for that, so the precondition is not used.

  Rows past the arrays' end: the last block's fetches fill only the first 256 rows of the staging buffers, the rest holding
  words nothing names, and the body computes on all 2048 rows. Every operation of the body acts on a row by itself, so the 256
  rows the write-back moves do not depend on the others; that is all the frames and the value need.

  The idealization rewrote nothing, so there is nothing to preserve.
-/
import proofs.«136837_j23639499997217_2_alg».proof.Defs
import proofs.«136837_j23639499997217_2_alg».proof.Proof.Gen.Kernel
import proofs.«136837_j23639499997217_2_alg».proof.Proof.Gen.KernelIdeal
import proofs.«136837_j23639499997217_2_alg».proof.Proof.Gen.ReferenceIdeal
import proofs.«136837_j23639499997217_2_alg».proof.Proof.Gen.Pre_finite_inputs
import proofs.«136837_j23639499997217_2_alg».proof.Proof.Gen.ReferenceIdeal.Run
import proofs.«136837_j23639499997217_2_alg».proof.Proof.Gen.ReferenceIdeal.Read
import proofs.«136837_j23639499997217_2_alg».proof.Proof.KernelBody
import proofs.«136837_j23639499997217_2_alg».proof.Proof.KernelIdealBody
import proofs.«136837_j23639499997217_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the arguments, the kernel's result array and the reference's both end
    at the fan-triangulation area of every row of the arguments. -/
theorem algebraic : Cert.algebraic_KernelIdeal_ReferenceIdeal := by
  intro m ρ m' ρ' _ hagree
  refine ⟨_, Cert.KernelIdeal.Body.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
